-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x3 : Shape := ⟨2, ![100000, 3]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S100000x3 .f32) (main_arg2 : IVec S800000 32) (main_arg3 : IVec S800000 32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S100000x3 : Shape := ⟨2, ![100000, 3]⟩
abbrev S800000 : Shape := ⟨1, ![800000]⟩
abbrev S128x128 : Shape := ⟨2, ![128, 128]⟩
abbrev S128 : Shape := ⟨1, ![128]⟩
abbrev S100000x1 : Shape := ⟨2, ![100000, 1]⟩
abbrev S100000 : Shape := ⟨1, ![100000]⟩
abbrev S1x128 : Shape := ⟨2, ![1, 128]⟩
abbrev S5000x128 : Shape := ⟨2, ![5000, 128]⟩
abbrev S5000x1 : Shape := ⟨2, ![5000, 1]⟩
abbrev S_ : Shape := ⟨0, ![]⟩
abbrev S800000x1 : Shape := ⟨2, ![800000, 1]⟩
abbrev S800000x128 : Shape := ⟨2, ![800000, 128]⟩
abbrev S20000x128 : Shape := ⟨2, ![20000, 128]⟩
abbrev S20000 : Shape := ⟨1, ![20000]⟩
abbrev S20000x1 : Shape := ⟨2, ![20000, 1]⟩

abbrev nBuf : Space → Nat
  | .hbm => 74
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S100000x3, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x1, .f32⟩
  | .hbm, ⟨9, _⟩ => ⟨S100000, .f32⟩
  | .hbm, ⟨10, _⟩ => ⟨S100000x1, .f32⟩
  | .hbm, ⟨11, _⟩ => ⟨S100000, .f32⟩
  | .hbm, ⟨12, _⟩ => ⟨S100000, .f32⟩
  | .hbm, ⟨13, _⟩ => ⟨S100000x1, .f32⟩
  | .hbm, ⟨14, _⟩ => ⟨S100000, .f32⟩
  | .hbm, ⟨15, _⟩ => ⟨S100000x1, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x1, .f32⟩
  | .hbm, ⟨20, _⟩ => ⟨S128x128, .f32⟩
  | .hbm, ⟨21, _⟩ => ⟨S128x128, .f32⟩
  | .hbm, ⟨22, _⟩ => ⟨S1x128, .f32⟩
  | .hbm, ⟨23, _⟩ => ⟨S1x128, .f32⟩
  | .hbm, ⟨24, _⟩ => ⟨S100000x128, .f32⟩
  | .hbm, ⟨25, _⟩ => ⟨S_, .f32⟩
  | .hbm, ⟨26, _⟩ => ⟨S800000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S20000x128, .f32⟩
  | .hbm, ⟨38, _⟩ => ⟨S800000x1, .i32⟩
  | .hbm, ⟨39, _⟩ => ⟨S20000x128, .f32⟩
  | .hbm, ⟨40, _⟩ => ⟨S_, .f32⟩
  | .hbm, ⟨41, _⟩ => ⟨S20000, .f32⟩
  | .hbm, ⟨42, _⟩ => ⟨S800000x1, .i32⟩
  | .hbm, ⟨43, _⟩ => ⟨S20000, .f32⟩
  | .hbm, ⟨44, _⟩ => ⟨S_, .f32⟩
  | .hbm, ⟨45, _⟩ => ⟨S20000, .f32⟩
  | .hbm, ⟨46, _⟩ => ⟨S20000, .f32⟩
  | .hbm, ⟨47, _⟩ => ⟨S20000x1, .f32⟩
  | .hbm, ⟨48, _⟩ => ⟨S20000x128, .f32⟩
  | .hbm, ⟨49, _⟩ => ⟨S20000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S100000x128, .f32⟩
  | .hbm, ⟨61, _⟩ => ⟨S800000x1, .i32⟩
  | .hbm, ⟨62, _⟩ => ⟨S100000x128, .f32⟩
  | .hbm, ⟨63, _⟩ => ⟨S_, .f32⟩
  | .hbm, ⟨64, _⟩ => ⟨S100000, .f32⟩
  | .hbm, ⟨65, _⟩ => ⟨S800000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S100000x3_S100000x1_0_0 : S100000x3.Slices ![0, 0] S100000x1
  shapeCasts_S100000x1_S100000 : S100000x1.ShapeCasts S100000
  slices_S100000x3_S100000x1_0_2 : S100000x3.Slices ![0, 2] S100000x1
  slices_S100000x3_S100000x1_0_1 : S100000x3.Slices ![0, 1] S100000x1
  shapeCasts_S100000_S100000x1 : S100000.ShapeCasts S100000x1
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S20000x128_S800000x1_S800000x128_1_0_0_1_wf : ScatterDims.WF S20000x128 S800000x1 S800000x128 [1] [0] [0] 1
  scatter_S20000_S800000x1_S800000_n_0_0_1_wf : ScatterDims.WF S20000 S800000x1 S800000 [] [0] [0] 1
  gather_S20000x128_S800000x1_S800000x128_1_0_n_n_0_1_1128_wf : GatherDims.WF S20000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S20000x128_S800000x1_S800000x128_1_0_0_1 : ScatterDims S20000x128 S800000x1 S800000x128 where
  updateWindowDims := [1]
  insertedWindowDims := [0]
  scatterDimsToOperandDims := [0]
  indexVectorDim := 1
  wf := scatter_S20000x128_S800000x1_S800000x128_1_0_0_1_wf
def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def gather_S20000x128_S800000x1_S800000x128_1_0_n_n_0_1_1128 : GatherDims S20000x128 S800000x1 S800000x128 where
  offsetDims := [1]
  collapsedSliceDims := [0]
  operandBatchingDims := []
  startIndicesBatchingDims := []
  startIndexMap := [0]
  indexVectorDim := 1
  sliceSizes := ![1, 128]
  wf := gather_S20000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x3 : Shape := ⟨2, ![100000, 3]⟩
abbrev S800000 : Shape := ⟨1, ![800000]⟩
abbrev S128x128 : Shape := ⟨2, ![128, 128]⟩
abbrev S128 : Shape := ⟨1, ![128]⟩
abbrev S100000x1 : Shape := ⟨2, ![100000, 1]⟩
abbrev S100000 : Shape := ⟨1, ![100000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S20000x128 : Shape := ⟨2, ![20000, 128]⟩
abbrev S20000 : Shape := ⟨1, ![20000]⟩
abbrev S20000x1 : Shape := ⟨2, ![20000, 1]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x3, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x1, .f32⟩
  | .hbm, ⟨9, _⟩ => ⟨S100000, .f32⟩
  | .hbm, ⟨10, _⟩ => ⟨S100000x1, .f32⟩
  | .hbm, ⟨11, _⟩ => ⟨S100000, .f32⟩
  | .hbm, ⟨12, _⟩ => ⟨S100000, .f32⟩
  | .hbm, ⟨13, _⟩ => ⟨S100000x1, .f32⟩
  | .hbm, ⟨14, _⟩ => ⟨S100000, .f32⟩
  | .hbm, ⟨15, _⟩ => ⟨S100000x1, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x128, .f32⟩
  | .hbm, ⟨20, _⟩ => ⟨S100000x128, .f32⟩
  | .hbm, ⟨21, _⟩ => ⟨S128x128, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S20000x128, .f32⟩
  | .hbm, ⟨42, _⟩ => ⟨S800000x1, .i32⟩
  | .hbm, ⟨43, _⟩ => ⟨S20000x128, .f32⟩
  | .hbm, ⟨44, _⟩ => ⟨S_, .f32⟩
  | .hbm, ⟨45, _⟩ => ⟨S20000, .f32⟩
  | .hbm, ⟨46, _⟩ => ⟨S800000x1, .i32⟩
  | .hbm, ⟨47, _⟩ => ⟨S20000, .f32⟩
  | .hbm, ⟨48, _⟩ => ⟨S_, .f32⟩
  | .hbm, ⟨49, _⟩ => ⟨S20000, .f32⟩
  | .hbm, ⟨50, _⟩ => ⟨S20000, .f32⟩
  | .hbm, ⟨51, _⟩ => ⟨S20000x1, .f32⟩
  | .hbm, ⟨52, _⟩ => ⟨S20000x128, .f32⟩
  | .hbm, ⟨53, _⟩ => ⟨S20000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S100000x128, .f32⟩
  | .hbm, ⟨65, _⟩ => ⟨S800000x1, .i32⟩
  | .hbm, ⟨66, _⟩ => ⟨S100000x128, .f32⟩
  | .hbm, ⟨67, _⟩ => ⟨S_, .f32⟩
  | .hbm, ⟨68, _⟩ => ⟨S100000, .f32⟩
  | .hbm, ⟨69, _⟩ => ⟨S800000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_4 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call1_cst : Ref sig .tc := ⟨.hbm, 86, rfl⟩
abbrev main_call1_v0 : Ref sig .tc := ⟨.hbm, 87, rfl⟩
abbrev main_v65 : Ref sig .tc := ⟨.hbm, 88, rfl⟩

abbrev nD : Nat := 1
abbrev τ : Topo := Topo.v7x

variable {F : FTy → Type} [FloatOps F]

class Facts₀ : Prop where
  slices_S100000x3_S100000x1_0_0 : S100000x3.Slices ![0, 0] S100000x1
  shapeCasts_S100000x1_S100000 : S100000x1.ShapeCasts S100000
  slices_S100000x3_S100000x1_0_2 : S100000x3.Slices ![0, 2] S100000x1
  slices_S100000x3_S100000x1_0_1 : S100000x3.Slices ![0, 1] S100000x1
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000 : S_.BroadcastsInDim S100000 (![] : Fin 0 → Fin S100000.rank)
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S20000x128_S800000x1_S800000x128_1_0_0_1_wf : ScatterDims.WF S20000x128 S800000x1 S800000x128 [1] [0] [0] 1
  scatter_S20000_S800000x1_S800000_n_0_0_1_wf : ScatterDims.WF S20000 S800000x1 S800000 [] [0] [0] 1
  gather_S20000x128_S800000x1_S800000x128_1_0_n_n_0_1_1128_wf : GatherDims.WF S20000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S20000x128_S800000x1_S800000x128_1_0_0_1 : ScatterDims S20000x128 S800000x1 S800000x128 where
  updateWindowDims := [1]
  insertedWindowDims := [0]
  scatterDimsToOperandDims := [0]
  indexVectorDim := 1
  wf := scatter_S20000x128_S800000x1_S800000x128_1_0_0_1_wf
def scatter_S20000_S800000x1_S800000_n_0_0_1 : ScatterDims S20000 S800000x1 S800000 where
  updateWindowDims := []
  insertedWindowDims := [0]
  scatterDimsToOperandDims := [0]
  indexVectorDim := 1
  wf := scatter_S20000_S800000x1_S800000_n_0_0_1_wf
def gather_S20000x128_S800000x1_S800000x128_1_0_n_n_0_1_1128 : GatherDims S20000x128 S800000x1 S800000x128 where
  offsetDims := [1]
  collapsedSliceDims := [0]
  operandBatchingDims := []
  startIndicesBatchingDims := []
  startIndexMap := [0]
  indexVectorDim := 1
  sliceSizes := ![1, 128]
  wf := gather_S20000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

class Facts : Prop extends Facts₀ where

variable [Facts]
-- ==== Proof.NamedRun.lean ====
/-
  The kernel program's run with its result named.

  @main is four segments: the host operations before the first region, the first region, the host operations between
  the regions, the second region. The buffers' contents at the four boundaries are a fold from the launch memory (the
  generated frame module names them W1 … W4). Every weakly fair execution terminates, and in its final state every
  unscoped buffer holds the last boundary's contents: so the result buffer holds W4 at the result's reference, and the
  eight argument buffers hold what they held at launch.
-/
import proofs.«158111_j84378927497725_1_alg».proof.Proof.FrameIdealP

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the argument buffers as launched. -/
theorem run : θ_run defs (onTc (τ := τ) (main (F := F))) ⟨m, fun _ => 0, ρ⟩ (fun r => ∀ c : Dev nD,
      r.2.mem ((c.tc : Thread nD τ).loc main_v54) = W4 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v54 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«158111_j84378927497725_1_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibAffineStage.lean ====
/-
  A dense layer without a cut-off on the extended reals, in the two spellings that lower from "x @ w + b".
  For an M×K array x, a K×N weight w and a bias given as a one-row array b (shape [1, N]), the layer is
      (a, c) ↦ Σ_{k<K} x(a,k)·w(k,c) + b(0,c) .
  * affine_of_matmul: a matrix unit's product over the plain M×K by K×N dimension numbers into a zero accumulator, both
    operands first narrowed to a 16-bit float format (the identity on the extended reals), plus the bias row (shape-cast to
    its own shape) broadcast over the rows, is the layer.
  * affine_of_dotGeneral: the host's product over the same dimension numbers, plus the bias row broadcast along the axes
    [0, 1], is the layer.
  * affine_rows: the layer's value in a row depends on x only through that row, so a block of rows of x gives that block
    of the layer (for kernels that tile the rows over a grid).
  * stage_eq_max_affine: the dense stage with a cut-off at 0 is the maximum of this layer and 0, entry by entry.
  * bias rows: a [N] vector reshaped to [1, N] (a row-major shape cast) and the same vector broadcast to [1, N] along
    axis 1 are one row, entry c of the vector at (0, c).
  Over the library, the plain-product lemmas and the dense-stage lemmas only; every extent is a variable.
-/
import Idealize.ShloMosaic.PureOps.Ideal.Laws
import Idealize.ShloMosaic.Lib.ValueIdx
import Idealize.ShloMosaic.Lib.Pipeline.Value
import proofs.«158111_j84378927497725_1_alg».proof.Proof.LibPlainDot
import proofs.«158111_j84378927497725_1_alg».proof.Proof.LibDenseStage
import proofs.«158111_j84378927497725_1_alg».proof.Proof.LibHostBroadcast

noncomputable section

namespace Cert.LibAffineStage

open Idealize.ShloMosaic Idealize.ShloMosaic.ValueIdx

variable (M K N : Nat)

/-- x·w plus the bias row. -/
def affine (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => ∑ k : Fin K, x (ix2 (i 0) k) * w (ix2 k (i 1)) + b (ix2 (0 : Fin 1) (i 1))

theorem affine_apply (x : FVec Ideal ⟨2, ![M, K]⟩ .f32) (w : FVec Ideal ⟨2, ![K, N]⟩ .f32) (b : FVec Ideal ⟨2, ![1, N]⟩ .f32)
    (a : Fin M) (c : Fin N) :
    affine M K N x w b (ix2 a c) = ∑ k : Fin K, x (ix2 a k) * w (ix2 k c) + b (ix2 (0 : Fin 1) c) := rfl

/-- The layer in row a' of a block is the layer in row a of the whole, when the block's row a' is the whole's row a. -/
theorem affine_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    affine M' K N x w b (ix2 a' c) = affine M K N X w b (ix2 a c) := by
  rw [affine_apply, affine_apply]
  exact congrArg (fun s => s + b (ix2 (0 : Fin 1) c)) (Finset.sum_congr rfl fun k _ => by rw [h k])

/-- The dense stage with a cut-off at 0 is the maximum of the layer and 0. -/
theorem stage_eq_max_affine (x : FVec Ideal ⟨2, ![M, K]⟩ .f32) (w : FVec Ideal ⟨2, ![K, N]⟩ .f32) (b : FVec Ideal ⟨2, ![1, N]⟩ .f32)
    (i : (⟨2, ![M, N]⟩ : Shape).Idx) :
    Cert.LibDenseStage.stage M K N x w b i = max (affine M K N x w b i) 0 := rfl

/-- The matrix unit's spelling of the layer. -/
theorem affine_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb)
      = affine M K N x w b := by
  funext i
  obtain ⟨a, c, rfl⟩ : ∃ (a : Fin M) (c : Fin N), i = ix2 a c := ⟨i 0, i 1, eq_ix2 i⟩
  rw [addf_apply, Cert.LibPlainDot.matmul_plain, shapeCast_self, Cert.LibDenseStage.row_broadcastTo, affine_apply]
  rfl

/-- The host's spelling of the layer. -/
theorem affine_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2)) :
    addf (Host.dotGeneral (F := Ideal) (DotDims.plain M K N) none x w) (broadcastInDim ⟨2, ![M, N]⟩ ![0, 1] hb b)
      = affine M K N x w b := by
  funext i
  obtain ⟨a, c, rfl⟩ : ∃ (a : Fin M) (c : Fin N), i = ix2 a c := ⟨i 0, i 1, eq_ix2 i⟩
  rw [addf_apply, Cert.LibPlainDot.dotGeneral_plain, Cert.LibDenseStage.row_broadcastInDim, affine_apply]
  rfl

/-- A [N] vector reshaped to a [1, N] row reads, at (0, c), the vector at c. -/
theorem reshape_row {α : Type} (v : (⟨1, ![N]⟩ : Shape).Idx → α) (h : (⟨1, ![N]⟩ : Shape).ShapeCasts ⟨2, ![1, N]⟩) (u : Fin 1) (c : Fin N) :
    shapeCast ⟨2, ![1, N]⟩ v h (ix2 u c) = v (ix1 c) :=
  shapeCast_apply v h (ix2 u c) (ix1 c) (by
    rw [Shape.rowMajor_val_one, Shape.rowMajor_val_two]
    have hu : u.val = 0 := by have := u.isLt; omega
    show c.val = u.val * N + c.val
    rw [hu]; omega)

/-- The reshaped row and the broadcast row of one vector are the same [1, N] array. -/
theorem reshape_row_eq_broadcast_row {α : Type} (v : (⟨1, ![N]⟩ : Shape).Idx → α) (h : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ v h = broadcastInDim ⟨2, ![1, N]⟩ ![1] hb v := by
  funext i
  obtain ⟨u, c, rfl⟩ : ∃ (u : Fin 1) (c : Fin N), i = ix2 u c := ⟨i 0, i 1, eq_ix2 i⟩
  rw [reshape_row, Cert.LibHostBroadcast.vec_to_row]

end Cert.LibAffineStage

end
-- ==== Proof.LibKeepdims.lean ====
/-
  Two layout facts about a column kept after a reduction over the last axis (`keepdims`), for any
  extents: an array of `a` entries viewed as an `a × 1` column reads the entry of its row, and an
  `a × 1` column repeated along `b` columns reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Layers.lean ====
/-
  The two layers of this kernel as functions of whole arrays, on the extended reals, for any number M of rows.

  With x an M×128 array, s and r columns (M×1), w a 128×128 weight and b a one-row bias (1×128):
    first  x s w b   (a, c) = max (Σ_k (x(a,k)·s(a,0))·w(k,c) + b(0,c)) 0
    second x y r w b (a, c) = max ((Σ_k x(a,k)·w(k,c) + b(0,c)) + y(a,c)·r(a,0)) 0 .
  Both are row-local: row a of the result reads x, y, s, r only in row a. So a block of rows of the operands gives that
  block of rows of the result, which is what a grid over row tiles computes.
  Each layer is then recognised in the two spellings that lower from the source: the matrix unit's (operands narrowed to a
  16-bit format, a product into a zero accumulator, the column repeated along the lanes by a vector broadcast) and the
  host's (dot_general, broadcast_in_dim). Nothing here needs finiteness: no sum is distributed and nothing is cancelled.
-/
import Idealize.ShloMosaic.PureOps.Ideal.Laws
import Idealize.ShloMosaic.Lib.ValueIdx
import Idealize.ShloMosaic.Lib.Pipeline.Value
import proofs.«158111_j84378927497725_1_alg».proof.Proof.LibAffineStage
import proofs.«158111_j84378927497725_1_alg».proof.Proof.LibKeepdims

noncomputable section

namespace Cert.Layers

open Idealize.ShloMosaic Idealize.ShloMosaic.ValueIdx
open Cert.LibDenseStage Cert.LibAffineStage

variable (M : Nat)

/-- Every row of x multiplied by that row's entry of the column s. -/
def scaleRows (x : FVec Ideal ⟨2, ![M, 128]⟩ .f32) (s : FVec Ideal ⟨2, ![M, 1]⟩ .f32) : FVec Ideal ⟨2, ![M, 128]⟩ .f32 :=
  fun i => x i * s (ix2 (i 0) (0 : Fin 1))

theorem scaleRows_apply (x : FVec Ideal ⟨2, ![M, 128]⟩ .f32) (s : FVec Ideal ⟨2, ![M, 1]⟩ .f32) (a : Fin M) (c : Fin 128) :
    scaleRows M x s (ix2 a c) = x (ix2 a c) * s (ix2 a (0 : Fin 1)) := rfl

/-- The first layer: the rows of x scaled by s, times w, plus the bias row, cut off below at 0. -/
def first (x : FVec Ideal ⟨2, ![M, 128]⟩ .f32) (s : FVec Ideal ⟨2, ![M, 1]⟩ .f32) (w : FVec Ideal ⟨2, ![128, 128]⟩ .f32)
    (b : FVec Ideal ⟨2, ![1, 128]⟩ .f32) : FVec Ideal ⟨2, ![M, 128]⟩ .f32 :=
  stage M 128 128 (scaleRows M x s) w b

/-- The second layer: x times w plus the bias row, plus the rows of y scaled by r, cut off below at 0. -/
def second (x y : FVec Ideal ⟨2, ![M, 128]⟩ .f32) (r : FVec Ideal ⟨2, ![M, 1]⟩ .f32) (w : FVec Ideal ⟨2, ![128, 128]⟩ .f32)
    (b : FVec Ideal ⟨2, ![1, 128]⟩ .f32) : FVec Ideal ⟨2, ![M, 128]⟩ .f32 :=
  fun i => max (affine M 128 128 x w b i + scaleRows M y r i) 0

theorem second_apply (x y : FVec Ideal ⟨2, ![M, 128]⟩ .f32) (r : FVec Ideal ⟨2, ![M, 1]⟩ .f32) (w : FVec Ideal ⟨2, ![128, 128]⟩ .f32)
    (b : FVec Ideal ⟨2, ![1, 128]⟩ .f32) (a : Fin M) (c : Fin 128) :
    second M x y r w b (ix2 a c) = max (affine M 128 128 x w b (ix2 a c) + y (ix2 a c) * r (ix2 a (0 : Fin 1))) 0 := rfl

/-! ## Row-locality -/

/-- Row a' of the first layer of a block is row a of the first layer of the whole, when the block's row a' of x and of s
    is the whole's row a. -/
theorem first_rows (M' : Nat) (X : FVec Ideal ⟨2, ![M, 128]⟩ .f32) (S : FVec Ideal ⟨2, ![M, 1]⟩ .f32)
    (x : FVec Ideal ⟨2, ![M', 128]⟩ .f32) (s : FVec Ideal ⟨2, ![M', 1]⟩ .f32)
    (w : FVec Ideal ⟨2, ![128, 128]⟩ .f32) (b : FVec Ideal ⟨2, ![1, 128]⟩ .f32) (a : Fin M) (a' : Fin M')
    (hx : ∀ k : Fin 128, x (ix2 a' k) = X (ix2 a k)) (hs : s (ix2 a' (0 : Fin 1)) = S (ix2 a (0 : Fin 1))) (c : Fin 128) :
    first M' x s w b (ix2 a' c) = first M X S w b (ix2 a c) :=
  stage_rows M 128 128 M' (scaleRows M X S) (scaleRows M' x s) w b a a'
    (fun k => by rw [scaleRows_apply, scaleRows_apply, hx k, hs]) c

/-- The same for the second layer: x, y and r enter row by row. -/
theorem second_rows (M' : Nat) (X Y : FVec Ideal ⟨2, ![M, 128]⟩ .f32) (R : FVec Ideal ⟨2, ![M, 1]⟩ .f32)
    (x y : FVec Ideal ⟨2, ![M', 128]⟩ .f32) (r : FVec Ideal ⟨2, ![M', 1]⟩ .f32)
    (w : FVec Ideal ⟨2, ![128, 128]⟩ .f32) (b : FVec Ideal ⟨2, ![1, 128]⟩ .f32) (a : Fin M) (a' : Fin M')
    (hx : ∀ k : Fin 128, x (ix2 a' k) = X (ix2 a k)) (hy : ∀ k : Fin 128, y (ix2 a' k) = Y (ix2 a k))
    (hr : r (ix2 a' (0 : Fin 1)) = R (ix2 a (0 : Fin 1))) (c : Fin 128) :
    second M' x y r w b (ix2 a' c) = second M X Y R w b (ix2 a c) := by
  rw [second_apply, second_apply, affine_rows M 128 128 M' X x w b a a' hx c, hy c, hr]

/-! ## The matrix unit's spelling -/

/-- A column, shape-cast twice to its own shape and repeated along the 128 lanes, times x entry by entry, is the
    row scaling. -/
theorem scaleRows_of_broadcastTo (x : FVec Ideal ⟨2, ![M, 128]⟩ .f32) (s : FVec Ideal ⟨2, ![M, 1]⟩ .f32)
    (h1 h2 : (⟨2, ![M, 1]⟩ : Shape).ShapeCasts ⟨2, ![M, 1]⟩) (hb : (⟨2, ![M, 1]⟩ : Shape).Broadcasts ⟨2, ![M, 128]⟩) :
    mulf x (broadcastTo ⟨2, ![M, 128]⟩ (shapeCast ⟨2, ![M, 1]⟩ (shapeCast ⟨2, ![M, 1]⟩ s h1) h2) hb) = scaleRows M x s := by
  funext i
  obtain ⟨a, c, rfl⟩ : ∃ (a : Fin M) (c : Fin 128), i = ix2 a c := ⟨i 0, i 1, eq_ix2 i⟩
  rw [mulf_apply, Cert.LibKeepdims.broadcastTo_a1_ab_apply, shapeCast_self, shapeCast_self, scaleRows_apply]

/-- The first layer as the matrix unit computes it on a tile. -/
theorem first_of_matmul (x : FVec Ideal ⟨2, ![M, 128]⟩ .f32) (s : FVec Ideal ⟨2, ![M, 1]⟩ .f32) (w : FVec Ideal ⟨2, ![128, 128]⟩ .f32)
    (b : FVec Ideal ⟨2, ![1, 128]⟩ .f32)
    (h1 h2 : (⟨2, ![M, 1]⟩ : Shape).ShapeCasts ⟨2, ![M, 1]⟩) (hb : (⟨2, ![M, 1]⟩ : Shape).Broadcasts ⟨2, ![M, 128]⟩)
    (hw : (⟨2, ![128, 128]⟩ : Shape).ShapeCasts ⟨2, ![128, 128]⟩)
    (t1 t2 : FTy.bf16.bits < FTy.f32.bits)
    (hc : (⟨2, ![1, 128]⟩ : Shape).ShapeCasts ⟨2, ![1, 128]⟩) (hr : (⟨2, ![1, 128]⟩ : Shape).Broadcasts ⟨2, ![M, 128]⟩) :
    maximumf (addf (matmul (F := Ideal) (DotDims.plain M 128 128) none
          (truncf .bf16 (mulf x (broadcastTo ⟨2, ![M, 128]⟩ (shapeCast ⟨2, ![M, 1]⟩ (shapeCast ⟨2, ![M, 1]⟩ s h1) h2) hb)) t1)
          (truncf .bf16 (shapeCast ⟨2, ![128, 128]⟩ w hw) t2) (constant ⟨2, ![M, 128]⟩ .f32 0x00000000#32))
        (broadcastTo ⟨2, ![M, 128]⟩ (shapeCast ⟨2, ![1, 128]⟩ b hc) hr))
      (broadcast ⟨2, ![M, 128]⟩ (Scalar.ofBits (F := Ideal) .f32 0x00000000#32))
      = first M x s w b := by
  rw [scaleRows_of_broadcastTo M x s h1 h2 hb, shapeCast_self w hw]
  exact stage_of_matmul M 128 128 (scaleRows M x s) w b t1 t2 hc hr

/-- The second layer as the matrix unit computes it on a tile (the operand y shape-cast to its own shape first). -/
theorem second_of_matmul (x y : FVec Ideal ⟨2, ![M, 128]⟩ .f32) (r : FVec Ideal ⟨2, ![M, 1]⟩ .f32) (w : FVec Ideal ⟨2, ![128, 128]⟩ .f32)
    (b : FVec Ideal ⟨2, ![1, 128]⟩ .f32)
    (hy : (⟨2, ![M, 128]⟩ : Shape).ShapeCasts ⟨2, ![M, 128]⟩)
    (h1 h2 : (⟨2, ![M, 1]⟩ : Shape).ShapeCasts ⟨2, ![M, 1]⟩) (hb : (⟨2, ![M, 1]⟩ : Shape).Broadcasts ⟨2, ![M, 128]⟩)
    (hw : (⟨2, ![128, 128]⟩ : Shape).ShapeCasts ⟨2, ![128, 128]⟩)
    (t1 t2 : FTy.bf16.bits < FTy.f32.bits)
    (hc : (⟨2, ![1, 128]⟩ : Shape).ShapeCasts ⟨2, ![1, 128]⟩) (hr : (⟨2, ![1, 128]⟩ : Shape).Broadcasts ⟨2, ![M, 128]⟩) :
    maximumf (addf (addf (matmul (F := Ideal) (DotDims.plain M 128 128) none (truncf .bf16 x t1)
            (truncf .bf16 (shapeCast ⟨2, ![128, 128]⟩ w hw) t2) (constant ⟨2, ![M, 128]⟩ .f32 0x00000000#32))
          (broadcastTo ⟨2, ![M, 128]⟩ (shapeCast ⟨2, ![1, 128]⟩ b hc) hr))
        (mulf (shapeCast ⟨2, ![M, 128]⟩ y hy)
          (broadcastTo ⟨2, ![M, 128]⟩ (shapeCast ⟨2, ![M, 1]⟩ (shapeCast ⟨2, ![M, 1]⟩ r h1) h2) hb)))
      (broadcast ⟨2, ![M, 128]⟩ (Scalar.ofBits (F := Ideal) .f32 0x00000000#32))
      = second M x y r w b := by
  rw [shapeCast_self y hy, scaleRows_of_broadcastTo M y r h1 h2 hb, shapeCast_self w hw,
    affine_of_matmul M 128 128 x w b t1 t2 hc hr]
  funext i
  rw [maximumf_apply, addf_apply, broadcast_apply]
  exact congrArg (max _) Ideal.ofBits_zero_f32

/-! ## The host's spelling -/

/-- A column spread along the 128 columns by a broadcast along both axes, times x entry by entry, is the row scaling. -/
theorem scaleRows_of_broadcastInDim (x : FVec Ideal ⟨2, ![M, 128]⟩ .f32) (s : FVec Ideal ⟨2, ![M, 1]⟩ .f32)
    (hb : (⟨2, ![M, 1]⟩ : Shape).BroadcastsInDim ⟨2, ![M, 128]⟩ (![0, 1] : Fin 2 → Fin 2)) :
    mulf x (broadcastInDim ⟨2, ![M, 128]⟩ ![0, 1] hb s) = scaleRows M x s := by
  funext i
  obtain ⟨a, c, rfl⟩ : ∃ (a : Fin M) (c : Fin 128), i = ix2 a c := ⟨i 0, i 1, eq_ix2 i⟩
  rw [mulf_apply, Cert.LibHostBroadcast.col_to_mat, scaleRows_apply]

/-- The first layer as the host computes it on the whole array. -/
theorem first_of_dotGeneral (x : FVec Ideal ⟨2, ![M, 128]⟩ .f32) (s : FVec Ideal ⟨2, ![M, 1]⟩ .f32) (w : FVec Ideal ⟨2, ![128, 128]⟩ .f32)
    (b : FVec Ideal ⟨2, ![1, 128]⟩ .f32)
    (hs : (⟨2, ![M, 1]⟩ : Shape).BroadcastsInDim ⟨2, ![M, 128]⟩ (![0, 1] : Fin 2 → Fin 2))
    (hb : (⟨2, ![1, 128]⟩ : Shape).BroadcastsInDim ⟨2, ![M, 128]⟩ (![0, 1] : Fin 2 → Fin 2))
    (h0 : (⟨0, ![]⟩ : Shape).BroadcastsInDim ⟨2, ![M, 128]⟩ (![] : Fin 0 → Fin 2)) :
    maximumf (addf (Host.dotGeneral (F := Ideal) (DotDims.plain M 128 128) none (mulf x (broadcastInDim ⟨2, ![M, 128]⟩ ![0, 1] hs s)) w)
        (broadcastInDim ⟨2, ![M, 128]⟩ ![0, 1] hb b))
      (broadcastInDim ⟨2, ![M, 128]⟩ ![] h0 (constant (F := Ideal) ⟨0, ![]⟩ .f32 0x00000000#32))
      = first M x s w b := by
  rw [scaleRows_of_broadcastInDim M x s hs]
  exact stage_of_dotGeneral M 128 128 (scaleRows M x s) w b hb h0

/-- The second layer as the host computes it on the whole array. -/
theorem second_of_dotGeneral (x y : FVec Ideal ⟨2, ![M, 128]⟩ .f32) (r : FVec Ideal ⟨2, ![M, 1]⟩ .f32) (w : FVec Ideal ⟨2, ![128, 128]⟩ .f32)
    (b : FVec Ideal ⟨2, ![1, 128]⟩ .f32)
    (hs : (⟨2, ![M, 1]⟩ : Shape).BroadcastsInDim ⟨2, ![M, 128]⟩ (![0, 1] : Fin 2 → Fin 2))
    (hb : (⟨2, ![1, 128]⟩ : Shape).BroadcastsInDim ⟨2, ![M, 128]⟩ (![0, 1] : Fin 2 → Fin 2))
    (h0 : (⟨0, ![]⟩ : Shape).BroadcastsInDim ⟨2, ![M, 128]⟩ (![] : Fin 0 → Fin 2)) :
    maximumf (addf (addf (Host.dotGeneral (F := Ideal) (DotDims.plain M 128 128) none x w) (broadcastInDim ⟨2, ![M, 128]⟩ ![0, 1] hb b))
        (mulf y (broadcastInDim ⟨2, ![M, 128]⟩ ![0, 1] hs r)))
      (broadcastInDim ⟨2, ![M, 128]⟩ ![] h0 (constant (F := Ideal) ⟨0, ![]⟩ .f32 0x00000000#32))
      = second M x y r w b := by
  rw [scaleRows_of_broadcastInDim M y r hs, affine_of_dotGeneral M 128 128 x w b hb]
  funext i
  rw [maximumf_apply, addf_apply, Cert.LibHostBroadcast.scalar_to_any, constant_apply]
  exact congrArg (max _) Ideal.ofBits_zero_f32

/-! ## A column and a row in their two forms -/

/-- An M-vector reshaped to an M×1 column and the same vector broadcast to an M×1 column along axis 0 are one array. -/
theorem reshape_col_eq_broadcast_col {α : Type} (v : (⟨1, ![M]⟩ : Shape).Idx → α) (h : (⟨1, ![M]⟩ : Shape).ShapeCasts ⟨2, ![M, 1]⟩)
    (hb : (⟨1, ![M]⟩ : Shape).BroadcastsInDim ⟨2, ![M, 1]⟩ (![0] : Fin 1 → Fin 2)) :
    shapeCast ⟨2, ![M, 1]⟩ v h = broadcastInDim ⟨2, ![M, 1]⟩ ![0] hb v := by
  funext i
  obtain ⟨a, u, rfl⟩ : ∃ (a : Fin M) (u : Fin 1), i = ix2 a u := ⟨i 0, i 1, eq_ix2 i⟩
  rw [Cert.LibKeepdims.shapeCast_a_a1_apply, Cert.LibHostBroadcast.vec_to_col]

end Cert.Layers

end
-- ==== Proof.Payloads.lean ====
/-
  What each kernel body computes on one tile of 5000 rows: the first region's stored value is the first layer of its four
  loaded blocks, the second region's the second layer of its five. The product's dimension numbers as printed are the plain
  ones of a 5000×128 by 128×128 product; narrowing to the 16-bit format and the shape casts to a value's own shape are
  identities on the extended reals.
-/
import proofs.«158111_j84378927497725_1_alg».proof.Proof.Gen.KernelIdeal.Skeleton
import proofs.«158111_j84378927497725_1_alg».proof.Proof.Layers

noncomputable section

namespace Cert.KernelIdeal.Tile

open Idealize.ShloMosaic Idealize.ShloMosaic.ValueIdx Cert.KernelIdeal Cert.KernelIdeal.Gen

/-- The first region's body on a tile: rows of x scaled by the send column, times the transposed weight, plus the bias
    row, cut off at 0. -/
theorem pay0_eq (x : FVec Ideal S5000x128 .f32) (s : FVec Ideal S5000x1 .f32) (w : FVec Ideal S128x128 .f32) (b : FVec Ideal S1x128 .f32) :
    k0_pay1 (F := Ideal) x s w b = Cert.Layers.first 5000 x s w b := by
  unfold k0_pay1
  exact Cert.Layers.first_of_matmul 5000 x s w b _ _ _ _ _ _ _ _

/-- The second region's body on a tile: x times the transposed weight plus the bias row, plus the rows of the aggregate
    scaled by the receive column, cut off at 0. -/
theorem pay1_eq (y : FVec Ideal S5000x128 .f32) (r : FVec Ideal S5000x1 .f32) (x : FVec Ideal S5000x128 .f32) (w : FVec Ideal S128x128 .f32)
    (b : FVec Ideal S1x128 .f32) :
    k1_pay1 (F := Ideal) y r x w b = Cert.Layers.second 5000 x y r w b := by
  unfold k1_pay1
  exact Cert.Layers.second_of_matmul 5000 x y r w b _ _ _ _ _ _ _ _ _

end Cert.KernelIdeal.Tile

end
-- ==== Proof.Region0.lean ====
/-
  The first region's result array as ONE function of the arrays the region finds.

  The grid has 20 points; point t reads rows 5000·t … 5000·t + 4999 of x and of the send column, the whole transposed
  weight and the whole bias row, and writes back rows 5000·t … of the result. The tile's value is the first layer at 5000
  rows, and the first layer is row-local, so what point t writes back is its block of the first layer of the whole arrays.
  The twenty row blocks tile the 100000 rows (row r lies in block r / 5000), so the array ends holding that layer.
-/
import proofs.«158111_j84378927497725_1_alg».proof.Proof.FrameIdealP
import proofs.«158111_j84378927497725_1_alg».proof.Proof.Payloads
import Idealize.ShloMosaic.Lib.Pipeline.Value

noncomputable section

namespace Cert.KernelIdeal.Rows0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: x, the send column and the result move with the point along the rows; the
    weight and the bias row stay at block (0, 0). -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Block t of x: entry (p, q) of the block is entry (5000·t + p, q) of x. -/
theorem blk_x (c : Dev nD) (t : Fin cfg0.N) (y : S5000x128.Idx) (k : S100000x128.Idx)
    (hk0 : (k 0).val = t.val * 5000 + (y 0).val) (hk1 : (k 1).val = (y 1).val) :
    (iblk0 V c 0 t : Vec Ideal S5000x128 .f32) y = (V c main_arg0 : S100000x128.Idx → Elt Ideal .f32) k := by
  obtain ⟨e0, e1, -⟩ := idx t
  unfold iblk0
  rw [View.read_apply]
  show V c main_arg0 _ = V c main_arg0 _
  refine congrArg _ ?_
  funext a
  apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- Block t of the send column: entry (p, 0) of the block is entry (5000·t + p, 0) of the column. -/
theorem blk_s (c : Dev nD) (t : Fin cfg0.N) (y : S5000x1.Idx) (k : S100000x1.Idx)
    (hk0 : (k 0).val = t.val * 5000 + (y 0).val) (hk1 : (k 1).val = (y 1).val) :
    (iblk0 V c 1 t : Vec Ideal S5000x1 .f32) y = (V c main_v10 : S100000x1.Idx → Elt Ideal .f32) k := by
  obtain ⟨-, -, e0, e1, -⟩ := idx t
  unfold iblk0
  rw [View.read_apply]
  show V c main_v10 _ = V c main_v10 _
  refine congrArg _ ?_
  funext a
  apply Fin.ext
  match a with
  | ⟨0, _⟩ => show win0_1.index t 0 * 5000 + 1 * (y 0).val = (k 0).val; rw [e0, hk0]; omega
  | ⟨1, _⟩ => show win0_1.index t 1 * 1 + 1 * (y 1).val = (k 1).val; rw [e1, hk1]; omega

/-- The weight's one block is the weight. -/
theorem blk_w (c : Dev nD) (t : Fin cfg0.N) :
    (iblk0 V c 2 t : Vec Ideal S128x128 .f32) = (V c main_v12 : S128x128.Idx → Elt Ideal .f32) := by
  obtain ⟨-, -, -, -, e0, e1, -⟩ := idx t
  funext y
  unfold iblk0
  rw [View.read_apply]
  show V c main_v12 _ = V c main_v12 _
  refine congrArg _ ?_
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The bias row's one block is the bias row. -/
theorem blk_b (c : Dev nD) (t : Fin cfg0.N) :
    (iblk0 V c 3 t : Vec Ideal S1x128 .f32) = (V c main_v14 : S1x128.Idx → Elt Ideal .f32) := by
  obtain ⟨-, -, -, -, -, -, e0, e1, -⟩ := idx t
  funext y
  unfold iblk0
  rw [View.read_apply]
  show V c main_v14 _ = V c main_v14 _
  refine congrArg _ ?_
  funext a
  apply Fin.ext
  match a with
  | ⟨0, _⟩ => show win0_3.index t 0 * 1 + 1 * (y 0).val = (y 0).val; rw [e0]; omega
  | ⟨1, _⟩ => show win0_3.index t 1 * 128 + 1 * (y 1).val = (y 1).val; rw [e1]; omega

/-- The first layer of the arrays the region finds. -/
def whole (c : Dev nD) : S100000x128.Idx → Elt Ideal .f32 :=
  Cert.Layers.first 100000 (V c main_arg0) (V c main_v10) (V c main_v12) (V c main_v14)

/-- What point t writes back is block t of the first layer of the whole arrays. -/
theorem flushed_eq (c : Dev nD) (t : Fin cfg0.N) :
    (dat0 (F := Ideal) V c).flushed 4 t = ((cfg0.win 4).blk t).view.read (Elt Ideal) (whole V c) := by
  show (cfg0.win 4).cut (grid0.coords t) ((dat0 (F := Ideal) V c).after 4 t) = _
  rw [after0_4]
  unfold out0_4
  rw [View.canon_unit_zero hz]
  simp only [View.ld_unit_zero (S := S5000x128) hz, View.ld_unit_zero (S := S5000x1) hz, View.ld_unit_zero (S := S128x128) hz,
    View.ld_unit_zero (S := S1x128) hz]
  rw [Cert.KernelIdeal.Tile.pay0_eq, blk_w V c t, blk_b V c t]
  obtain ⟨-, -, -, -, -, -, -, -, e8, e9⟩ := idx t
  have ht : t.val < 20 := lt_of_lt_of_eq t.isLt N_0
  funext j
  obtain ⟨p, q, rfl⟩ : ∃ (p : Fin 5000) (q : Fin 128), j = ix2 p q := ⟨j 0, j 1, eq_ix2 j⟩
  have hemb : ((cfg0.win 4).blk t).view.emb (ix2 p q) = ix2 (⟨t.val * 5000 + p.val, by have := p.isLt; omega⟩ : Fin 100000) q := by
    funext a
    apply Fin.ext
    match a with
    | ⟨0, _⟩ => show win0_4.index t 0 * 5000 + 1 * p.val = t.val * 5000 + p.val; rw [e8]; omega
    | ⟨1, _⟩ => show win0_4.index t 1 * 128 + 1 * q.val = q.val; rw [e9]; omega
  show Cert.Layers.first 5000 (iblk0 V c 0 t) (iblk0 V c 1 t) (V c main_v12) (V c main_v14) (ix2 p q)
    = whole V c (((cfg0.win 4).blk t).view.emb (ix2 p q))
  rw [hemb]
  exact Cert.Layers.first_rows 100000 5000 (V c main_arg0) (V c main_v10) (iblk0 V c 0 t) (iblk0 V c 1 t) (V c main_v12) (V c main_v14)
    ⟨t.val * 5000 + p.val, by have := p.isLt; omega⟩ p
    (fun k => blk_x V c t (ix2 p k) (ix2 ⟨t.val * 5000 + p.val, by have := p.isLt; omega⟩ k) rfl rfl)
    (blk_s V c t (ix2 p (0 : Fin 1)) (ix2 ⟨t.val * 5000 + p.val, by have := p.isLt; omega⟩ (0 : Fin 1)) rfl rfl) q

/-- An index of the result array is in point t's block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v16).slice (win0_4.rect t)).set ↔ _
  rw [View.set_slice_whole, Rect.mem_set_unit]
  exact Iff.rfl

/-- Every index of the result array is in the block of the point its row falls in. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, e8, e9⟩ := idx t
  refine ⟨t, flush0_4 t, ?_⟩
  rw [mem_blk]
  intro a
  match a with
  | ⟨0, _⟩ => show win0_4.index t 0 * 5000 ≤ (i 0).val ∧ (i 0).val < win0_4.index t 0 * 5000 + 5000; rw [e8, ht]; omega
  | ⟨1, _⟩ => show win0_4.index t 1 * 128 ≤ (i 1).val ∧ (i 1).val < win0_4.index t 1 * 128 + 128; rw [e9]; omega

/-- The result array after the region: the first layer of the arrays the region found. -/
theorem final (c : Dev nD) : (dat0 (F := Ideal) V c).arrAt 4 cfg0.N = whole V c :=
  (dat0 (F := Ideal) V c).arrAt_eq_of_cover 4 (whole V c) (fun t _ => flushed_eq V c t) (cover)

end Cert.KernelIdeal.Rows0

end
-- ==== Proof.Region1.lean ====
/-
  The second region's result array as ONE function of the arrays the region finds.

  Again 20 points; point t reads rows 5000·t … 5000·t + 4999 of x, of the aggregate and of the receive column, the whole
  transposed weight and the whole bias row, and writes back rows 5000·t … of the result. The tile's value is the second
  layer at 5000 rows; the second layer is row-local; the twenty row blocks tile the 100000 rows.
-/
import proofs.«158111_j84378927497725_1_alg».proof.Proof.FrameIdealP
import proofs.«158111_j84378927497725_1_alg».proof.Proof.Payloads
import Idealize.ShloMosaic.Lib.Pipeline.Value

noncomputable section

namespace Cert.KernelIdeal.Rows1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: x, the aggregate, the receive column and the result move with the point along
    the rows; the weight and the bias row stay at block (0, 0). -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block t of x: entry (p, q) of the block is entry (5000·t + p, q) of x. -/
theorem blk_x (c : Dev nD) (t : Fin cfg1.N) (y : S5000x128.Idx) (k : S100000x128.Idx)
    (hk0 : (k 0).val = t.val * 5000 + (y 0).val) (hk1 : (k 1).val = (y 1).val) :
    (iblk1 V c 0 t : Vec Ideal S5000x128 .f32) y = (V c main_arg0 : S100000x128.Idx → Elt Ideal .f32) k := by
  obtain ⟨e0, e1, -⟩ := idx t
  unfold iblk1
  rw [View.read_apply]
  show V c main_arg0 _ = V c main_arg0 _
  refine congrArg _ ?_
  funext a
  apply Fin.ext
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

/-- Block t of the aggregate, likewise. -/
theorem blk_y (c : Dev nD) (t : Fin cfg1.N) (y : S5000x128.Idx) (k : S100000x128.Idx)
    (hk0 : (k 0).val = t.val * 5000 + (y 0).val) (hk1 : (k 1).val = (y 1).val) :
    (iblk1 V c 1 t : Vec Ideal S5000x128 .f32) y = (V c main_v53 : S100000x128.Idx → Elt Ideal .f32) k := by
  obtain ⟨-, -, e0, e1, -⟩ := idx t
  unfold iblk1
  rw [View.read_apply]
  show V c main_v53 _ = V c main_v53 _
  refine congrArg _ ?_
  funext a
  apply Fin.ext
  match a with
  | ⟨0, _⟩ => show win1_1.index t 0 * 5000 + 1 * (y 0).val = (k 0).val; rw [e0, hk0]; omega
  | ⟨1, _⟩ => show win1_1.index t 1 * 128 + 1 * (y 1).val = (k 1).val; rw [e1, hk1]; omega

/-- Block t of the receive column: entry (p, 0) of the block is entry (5000·t + p, 0) of the column. -/
theorem blk_r (c : Dev nD) (t : Fin cfg1.N) (y : S5000x1.Idx) (k : S100000x1.Idx)
    (hk0 : (k 0).val = t.val * 5000 + (y 0).val) (hk1 : (k 1).val = (y 1).val) :
    (iblk1 V c 2 t : Vec Ideal S5000x1 .f32) y = (V c main_v11 : S100000x1.Idx → Elt Ideal .f32) k := by
  obtain ⟨-, -, -, -, e0, e1, -⟩ := idx t
  unfold iblk1
  rw [View.read_apply]
  show V c main_v11 _ = V c main_v11 _
  refine congrArg _ ?_
  funext a
  apply Fin.ext
  match a with
  | ⟨0, _⟩ => show win1_2.index t 0 * 5000 + 1 * (y 0).val = (k 0).val; rw [e0, hk0]; omega
  | ⟨1, _⟩ => show win1_2.index t 1 * 1 + 1 * (y 1).val = (k 1).val; rw [e1, hk1]; omega

/-- The weight's one block is the weight. -/
theorem blk_w (c : Dev nD) (t : Fin cfg1.N) :
    (iblk1 V c 3 t : Vec Ideal S128x128 .f32) = (V c main_v13 : S128x128.Idx → Elt Ideal .f32) := by
  obtain ⟨-, -, -, -, -, -, e0, e1, -⟩ := idx t
  funext y
  unfold iblk1
  rw [View.read_apply]
  show V c main_v13 _ = V c main_v13 _
  refine congrArg _ ?_
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- The bias row's one block is the bias row. -/
theorem blk_b (c : Dev nD) (t : Fin cfg1.N) :
    (iblk1 V c 4 t : Vec Ideal S1x128 .f32) = (V c main_v15 : S1x128.Idx → Elt Ideal .f32) := by
  obtain ⟨-, -, -, -, -, -, -, -, e0, e1, -⟩ := idx t
  funext y
  unfold iblk1
  rw [View.read_apply]
  show V c main_v15 _ = V c main_v15 _
  refine congrArg _ ?_
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega

/-- The second layer of the arrays the region finds. -/
def whole (c : Dev nD) : S100000x128.Idx → Elt Ideal .f32 :=
  Cert.Layers.second 100000 (V c main_arg0) (V c main_v53) (V c main_v11) (V c main_v13) (V c main_v15)

/-- What point t writes back is block t of the second layer of the whole arrays. -/
theorem flushed_eq (c : Dev nD) (t : Fin cfg1.N) :
    (dat1 (F := Ideal) V c).flushed 5 t = ((cfg1.win 5).blk t).view.read (Elt Ideal) (whole V c) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S5000x1) hz, View.ld_unit_zero (S := S128x128) hz,
    View.ld_unit_zero (S := S1x128) hz]
  rw [Cert.KernelIdeal.Tile.pay1_eq, blk_w V c t, blk_b V c t]
  obtain ⟨-, -, -, -, -, -, -, -, -, -, e8, e9⟩ := idx t
  have ht : t.val < 20 := lt_of_lt_of_eq t.isLt N_1
  funext j
  obtain ⟨p, q, rfl⟩ : ∃ (p : Fin 5000) (q : Fin 128), j = ix2 p q := ⟨j 0, j 1, eq_ix2 j⟩
  have hemb : ((cfg1.win 5).blk t).view.emb (ix2 p q) = ix2 (⟨t.val * 5000 + p.val, by have := p.isLt; omega⟩ : Fin 100000) q := by
    funext a
    apply Fin.ext
    match a with
    | ⟨0, _⟩ => show win1_5.index t 0 * 5000 + 1 * p.val = t.val * 5000 + p.val; rw [e8]; omega
    | ⟨1, _⟩ => show win1_5.index t 1 * 128 + 1 * q.val = q.val; rw [e9]; omega
  show Cert.Layers.second 5000 (iblk1 V c 0 t) (iblk1 V c 1 t) (iblk1 V c 2 t) (V c main_v13) (V c main_v15) (ix2 p q)
    = whole V c (((cfg1.win 5).blk t).view.emb (ix2 p q))
  rw [hemb]
  exact Cert.Layers.second_rows 100000 5000 (V c main_arg0) (V c main_v53) (V c main_v11) (iblk1 V c 0 t) (iblk1 V c 1 t) (iblk1 V c 2 t)
    (V c main_v13) (V c main_v15) ⟨t.val * 5000 + p.val, by have := p.isLt; omega⟩ p
    (fun k => blk_x V c t (ix2 p k) (ix2 ⟨t.val * 5000 + p.val, by have := p.isLt; omega⟩ k) rfl rfl)
    (fun k => blk_y V c t (ix2 p k) (ix2 ⟨t.val * 5000 + p.val, by have := p.isLt; omega⟩ k) rfl rfl)
    (blk_r V c t (ix2 p (0 : Fin 1)) (ix2 ⟨t.val * 5000 + p.val, by have := p.isLt; omega⟩ (0 : Fin 1)) rfl rfl) q

/-- An index of the result array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v54).slice (win1_5.rect t)).set ↔ _
  rw [View.set_slice_whole, Rect.mem_set_unit]
  exact Iff.rfl

/-- Every index of the result array is in the block of the point its row falls in. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e8, e9⟩ := idx t
  refine ⟨t, flush1_5 t, ?_⟩
  rw [mem_blk]
  intro a
  match a with
  | ⟨0, _⟩ => show win1_5.index t 0 * 5000 ≤ (i 0).val ∧ (i 0).val < win1_5.index t 0 * 5000 + 5000; rw [e8, ht]; omega
  | ⟨1, _⟩ => show win1_5.index t 1 * 128 ≤ (i 1).val ∧ (i 1).val < win1_5.index t 1 * 128 + 128; rw [e9]; omega

/-- The result array after the region: the second layer of the arrays the region found. -/
theorem final (c : Dev nD) : (dat1 (F := Ideal) V c).arrAt 5 cfg1.N = whole V c :=
  (dat1 (F := Ideal) V c).arrAt_eq_of_cover 5 (whole V c) (fun t _ => flushed_eq V c t) (cover)

end Cert.KernelIdeal.Rows1

end
-- ==== Proof.Shared.lean ====
/-
  What the two programs share, named once.

  Both programs compute, on the extended reals,
      h = second x (aggregate (first x (send a) W1ᵀ b1) v_ids e_ids) (receive a) Wuᵀ bu
  where send a = a[:,0] + a[:,2] and receive a = a[:,0] + a[:,1] (as columns), first and second are the two dense layers,
  and aggregate is the vertex → hyperedge → vertex mean: two gathers, four scatter-adds, two divisions by counts bounded
  below by 1, the same host operations in the same order in both programs. The aggregate is never opened: it is one
  function of the first layer's output and the two index vectors, and equal inputs give equal outputs.
  The host's spelling of each layer (dot_general, broadcast_in_dim, a rank-0 zero) is recognised as the layer.
-/
import proofs.«158111_j84378927497725_1_alg».proof.Proof.Gen.ReferenceIdeal
import proofs.«158111_j84378927497725_1_alg».proof.Proof.Layers

noncomputable section

namespace Cert.Shared

open Idealize.ShloMosaic Cert.ReferenceIdeal Cert.ReferenceIdeal.Facts₀

/-- a[:,0] + a[:,2] as a vector. -/
def sendOf (a : FVec Ideal S100000x3 .f32) : FVec Ideal S100000 .f32 :=
  addf (shapeCast _ (extractStridedSlice S100000x1 ![0, 0] a slices_S100000x3_S100000x1_0_0) shapeCasts_S100000x1_S100000) (shapeCast _ (extractStridedSlice S100000x1 ![0, 2] a slices_S100000x3_S100000x1_0_2) shapeCasts_S100000x1_S100000)

/-- a[:,0] + a[:,1] as a vector. -/
def recvOf (a : FVec Ideal S100000x3 .f32) : FVec Ideal S100000 .f32 :=
  addf (shapeCast _ (extractStridedSlice S100000x1 ![0, 0] a slices_S100000x3_S100000x1_0_0) shapeCasts_S100000x1_S100000) (shapeCast _ (extractStridedSlice S100000x1 ![0, 1] a slices_S100000x3_S100000x1_0_1) shapeCasts_S100000x1_S100000)

/-- A vector of 100000 entries as a column. -/
def colOf (v : FVec Ideal S100000 .f32) : FVec Ideal S100000x1 .f32 := broadcastInDim S100000x1 ![0] bcast_S100000_S100000x1_0 v

/-- A vector of 128 entries as a row. -/
def rowOf (b : FVec Ideal S128 .f32) : FVec Ideal S1x128 .f32 := broadcastInDim S1x128 ![1] bcast_S128_S1x128_1 b

/-- A 128×128 weight transposed. -/
def trOf (w : FVec Ideal S128x128 .f32) : FVec Ideal S128x128 .f32 := transpose S128x128 [1, 0] w transposes_S128x128_S128x128_1_0

/-- The vertex → hyperedge → vertex mean of the rows of M along the incidence pairs (v_ids, e_ids): rows gathered at the
    vertex ids and added per hyperedge, divided by the hyperedge's count (at least 1); then rows gathered at the hyperedge
    ids and added per vertex, divided by the vertex's count (at least 1). Carried as one function. -/
def aggregate (M : FVec Ideal S100000x128 .f32) (vi ei : (⟨S800000, .i32⟩ : BufTy).Contents (Elt Ideal)) : FVec Ideal S100000x128 .f32 :=
  Host.divf (Host.scatterAdd scatter_S100000x128_S800000x1_S800000x128_1_0_0_1 (broadcastInDim S100000x128 ![] bcast_S_S100000x128 (constant (F := Ideal) S_ .f32 0x00000000#32)) (broadcastInDim S800000x1 ![0] bcast_S800000_S800000x1_0 vi) (Host.gather gather_S20000x128_S800000x1_S800000x128_1_0_n_n_0_1_1128 (Host.divf (Host.scatterAdd scatter_S20000x128_S800000x1_S800000x128_1_0_0_1 (broadcastInDim S20000x128 ![] bcast_S_S20000x128 (constant (F := Ideal) S_ .f32 0x00000000#32)) (broadcastInDim S800000x1 ![0] bcast_S800000_S800000x1_0 ei) (Host.gather gather_S100000x128_S800000x1_S800000x128_1_0_n_n_0_1_1128 M (broadcastInDim S800000x1 ![0] bcast_S800000_S800000x1_0 (select (cmpi .slt vi (broadcastInDim S800000 ![] bcast_S_S800000 (constantI S_ 32 0#32))) (addi vi (broadcastInDim S800000 ![] bcast_S_S800000 (constantI S_ 32 100000#32))) vi)))) (broadcastInDim S20000x128 ![0, 1] bcast_S20000x1_S20000x128_0_1 (broadcastInDim S20000x1 ![0] bcast_S20000_S20000x1_0 (maximumf (Host.scatterAdd scatter_S20000_S800000x1_S800000_n_0_0_1 (broadcastInDim S20000 ![] bcast_S_S20000 (constant (F := Ideal) S_ .f32 0x00000000#32)) (broadcastInDim S800000x1 ![0] bcast_S800000_S800000x1_0 ei) (broadcastInDim S800000 ![] bcast_S_S800000 (constant (F := Ideal) S_ .f32 0x3F800000#32))) (broadcastInDim S20000 ![] bcast_S_S20000 (constant (F := Ideal) S_ .f32 0x3F800000#32)))))) (broadcastInDim S800000x1 ![0] bcast_S800000_S800000x1_0 (select (cmpi .slt ei (broadcastInDim S800000 ![] bcast_S_S800000 (constantI S_ 32 0#32))) (addi ei (broadcastInDim S800000 ![] bcast_S_S800000 (constantI S_ 32 20000#32))) ei)))) (broadcastInDim S100000x128 ![0, 1] bcast_S100000x1_S100000x128_0_1 (broadcastInDim S100000x1 ![0] bcast_S100000_S100000x1_0 (maximumf (Host.scatterAdd scatter_S100000_S800000x1_S800000_n_0_0_1 (broadcastInDim S100000 ![] bcast_S_S100000 (constant (F := Ideal) S_ .f32 0x00000000#32)) (broadcastInDim S800000x1 ![0] bcast_S800000_S800000x1_0 vi) (broadcastInDim S800000 ![] bcast_S_S800000 (constant (F := Ideal) S_ .f32 0x3F800000#32))) (broadcastInDim S100000 ![] bcast_S_S100000 (constant (F := Ideal) S_ .f32 0x3F800000#32)))))

/-- The first layer in the host's spelling. -/
def hostFirst (x : FVec Ideal S100000x128 .f32) (a : FVec Ideal S100000x3 .f32) (w : FVec Ideal S128x128 .f32) (b : FVec Ideal S128 .f32) :
    FVec Ideal S100000x128 .f32 :=
  maximumf (addf (Host.dotGeneral dot_S100000x128_S128x128_S100000x128_1_0_0_1_n_n none (mulf x (broadcastInDim S100000x128 ![0, 1] bcast_S100000x1_S100000x128_0_1 (broadcastInDim S100000x1 ![0] bcast_S100000_S100000x1_0 (sendOf a)))) (transpose S128x128 [1, 0] w transposes_S128x128_S128x128_1_0)) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

/-- The second layer in the host's spelling. -/
def hostSecond (x Y : FVec Ideal S100000x128 .f32) (a : FVec Ideal S100000x3 .f32) (w : FVec Ideal S128x128 .f32) (b : FVec Ideal S128 .f32) :
    FVec Ideal S100000x128 .f32 :=
  maximumf (addf (addf (Host.dotGeneral dot_S100000x128_S128x128_S100000x128_1_0_0_1_n_n none x (transpose S128x128 [1, 0] w transposes_S128x128_S128x128_1_0)) (broadcastInDim S100000x128 ![0, 1] bcast_S1x128_S100000x128_0_1 (broadcastInDim S1x128 ![1] bcast_S128_S1x128_1 b))) (mulf Y (broadcastInDim S100000x128 ![0, 1] bcast_S100000x1_S100000x128_0_1 (broadcastInDim S100000x1 ![0] bcast_S100000_S100000x1_0 (recvOf a))))) (broadcastInDim S100000x128 ![] bcast_S_S100000x128 (constant (F := Ideal) S_ .f32 0x00000000#32))

/-- The whole computation as one function of the eight arguments. -/
def result (x : FVec Ideal S100000x128 .f32) (a : FVec Ideal S100000x3 .f32) (vi ei : (⟨S800000, .i32⟩ : BufTy).Contents (Elt Ideal))
    (w1 : FVec Ideal S128x128 .f32) (b1 : FVec Ideal S128 .f32) (wu : FVec Ideal S128x128 .f32) (bu : FVec Ideal S128 .f32) :
    FVec Ideal S100000x128 .f32 :=
  Cert.Layers.second 100000 x (aggregate (Cert.Layers.first 100000 x (colOf (sendOf a)) (trOf w1) (rowOf b1)) vi ei)
    (colOf (recvOf a)) (trOf wu) (rowOf bu)

theorem hostFirst_eq (x : FVec Ideal S100000x128 .f32) (a : FVec Ideal S100000x3 .f32) (w : FVec Ideal S128x128 .f32) (b : FVec Ideal S128 .f32) :
    hostFirst x a w b = Cert.Layers.first 100000 x (colOf (sendOf a)) (trOf w) (rowOf b) := by
  unfold hostFirst
  exact Cert.Layers.first_of_dotGeneral 100000 x (colOf (sendOf a)) (trOf w) (rowOf b) _ _ _

theorem hostSecond_eq (x Y : FVec Ideal S100000x128 .f32) (a : FVec Ideal S100000x3 .f32) (w : FVec Ideal S128x128 .f32) (b : FVec Ideal S128 .f32) :
    hostSecond x Y a w b = Cert.Layers.second 100000 x Y (colOf (recvOf a)) (trOf w) (rowOf b) := by
  unfold hostSecond
  exact Cert.Layers.second_of_dotGeneral 100000 x Y (colOf (recvOf a)) (trOf w) (rowOf b) _ _ _

end Cert.Shared

end
-- ==== Proof.Fold.lean ====
/-
  The kernel program's result as the shared function of its arguments.

  The contents of the buffers at the four boundaries of @main are a fold from the launch memory:
    * before the first region the host has formed the send and receive columns (reshapes of a[:,0] + a[:,2] and of
      a[:,0] + a[:,1]), the two transposed weights and the two bias rows (reshapes of the bias vectors); x and the index
      vectors are as launched;
    * the first region leaves in its result array the first layer of what it found, and nothing else changes;
    * the host then forms the aggregate of that array along the incidence pairs; the columns, weights, rows and x are
      not written;
    * the second region leaves in its result array the second layer of what it found.
  A reshape of a vector to a column (to a row) is the same array as its broadcast to a column (to a row), which is the
  host's spelling in the reference; so the result is `Shared.result` of the eight arguments.
-/
import proofs.«158111_j84378927497725_1_alg».proof.Proof.FrameIdealP
import proofs.«158111_j84378927497725_1_alg».proof.Proof.Region0
import proofs.«158111_j84378927497725_1_alg».proof.Proof.Region1
import proofs.«158111_j84378927497725_1_alg».proof.Proof.Shared
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat)
open Cert.KernelIdeal Cert.KernelIdeal.Facts₀ Cert.KernelIdeal.Gen

variable (m : (ℓ : Loc nD τ sig) → Buf (Elt Ideal) ℓ) (ρ : Dev nD → PrngReg)

/-! ## Before the first region -/

theorem in0_x (c : Dev nD) : V1 m ρ c main_arg0 = (m ((c : Thread nD τ).loc main_arg0)) := by
  show StableHlo.after hostOps0 (W0 m ρ c) (Proc.devRef .tc main_arg0) = _
  dsimp only [hostOps0]
  after_results

theorem in0_send (c : Dev nD) : V1 m ρ c main_v10 = Cert.Shared.colOf (Cert.Shared.sendOf (m ((c : Thread nD τ).loc main_arg1))) := by
  show StableHlo.after hostOps0 (W0 m ρ c) (Proc.devRef .tc main_v10) = _
  dsimp only [hostOps0]
  after_results
  exact Cert.Layers.reshape_col_eq_broadcast_col 100000 (Cert.Shared.sendOf (m ((c : Thread nD τ).loc main_arg1))) _ _

theorem in0_w (c : Dev nD) : V1 m ρ c main_v12 = Cert.Shared.trOf (m ((c : Thread nD τ).loc main_arg4)) := by
  show StableHlo.after hostOps0 (W0 m ρ c) (Proc.devRef .tc main_v12) = _
  dsimp only [hostOps0]
  after_results
  rfl

theorem in0_b (c : Dev nD) : V1 m ρ c main_v14 = Cert.Shared.rowOf (m ((c : Thread nD τ).loc main_arg5)) := by
  show StableHlo.after hostOps0 (W0 m ρ c) (Proc.devRef .tc main_v14) = _
  dsimp only [hostOps0]
  after_results
  exact Cert.LibAffineStage.reshape_row_eq_broadcast_row 128 (m ((c : Thread nD τ).loc main_arg5)) _ _

theorem at1_recv (c : Dev nD) : W1 m ρ c (Proc.devRef .tc main_v11) = Cert.Shared.colOf (Cert.Shared.recvOf (m ((c : Thread nD τ).loc main_arg1))) := by
  show StableHlo.after hostOps0 (W0 m ρ c) (Proc.devRef .tc main_v11) = _
  dsimp only [hostOps0]
  after_results
  exact Cert.Layers.reshape_col_eq_broadcast_col 100000 (Cert.Shared.recvOf (m ((c : Thread nD τ).loc main_arg1))) _ _

theorem at1_w (c : Dev nD) : W1 m ρ c (Proc.devRef .tc main_v13) = Cert.Shared.trOf (m ((c : Thread nD τ).loc main_arg6)) := by
  show StableHlo.after hostOps0 (W0 m ρ c) (Proc.devRef .tc main_v13) = _
  dsimp only [hostOps0]
  after_results
  rfl

theorem at1_b (c : Dev nD) : W1 m ρ c (Proc.devRef .tc main_v15) = Cert.Shared.rowOf (m ((c : Thread nD τ).loc main_arg7)) := by
  show StableHlo.after hostOps0 (W0 m ρ c) (Proc.devRef .tc main_v15) = _
  dsimp only [hostOps0]
  after_results
  exact Cert.LibAffineStage.reshape_row_eq_broadcast_row 128 (m ((c : Thread nD τ).loc main_arg7)) _ _

theorem at1_vi (c : Dev nD) : W1 m ρ c (Proc.devRef .tc main_arg2) = (m ((c : Thread nD τ).loc main_arg2)) := by
  show StableHlo.after hostOps0 (W0 m ρ c) (Proc.devRef .tc main_arg2) = _
  dsimp only [hostOps0]
  after_results

theorem at1_ei (c : Dev nD) : W1 m ρ c (Proc.devRef .tc main_arg3) = (m ((c : Thread nD τ).loc main_arg3)) := by
  show StableHlo.after hostOps0 (W0 m ρ c) (Proc.devRef .tc main_arg3) = _
  dsimp only [hostOps0]
  after_results

/-! ## After the first region -/

/-- The first region's result array: the first layer of x, the send column, the transposed weight and the bias row. -/
theorem at2_first (c : Dev nD) : W2 m ρ c (Proc.devRef .tc main_v16)
    = Cert.Layers.first 100000 (m ((c : Thread nD τ).loc main_arg0)) (Cert.Shared.colOf (Cert.Shared.sendOf (m ((c : Thread nD τ).loc main_arg1)))) (Cert.Shared.trOf (m ((c : Thread nD τ).loc main_arg4))) (Cert.Shared.rowOf (m ((c : Thread nD τ).loc main_arg5))) := by
  refine (W2_arr m ρ c 4).trans ((Cert.KernelIdeal.Rows0.final (V1 m ρ) c).trans ?_)
  unfold Cert.KernelIdeal.Rows0.whole
  rw [in0_x m ρ c, in0_send m ρ c, in0_w m ρ c, in0_b m ρ c]

theorem at2_x (c : Dev nD) : W2 m ρ c (Proc.devRef .tc main_arg0) = (m ((c : Thread nD τ).loc main_arg0)) :=
  (W2_arr m ρ c 0).trans (((dat0 (V1 m ρ) c).arrAt_in 0 rfl _).trans ((A_eq0 (V1 m ρ) c 0).trans (in0_x m ρ c)))

theorem at2_recv (c : Dev nD) : W2 m ρ c (Proc.devRef .tc main_v11) = Cert.Shared.colOf (Cert.Shared.recvOf (m ((c : Thread nD τ).loc main_arg1))) :=
  (W2_of_ne m ρ c main_v11 (by decide)).trans (at1_recv m ρ c)

theorem at2_w (c : Dev nD) : W2 m ρ c (Proc.devRef .tc main_v13) = Cert.Shared.trOf (m ((c : Thread nD τ).loc main_arg6)) :=
  (W2_of_ne m ρ c main_v13 (by decide)).trans (at1_w m ρ c)

theorem at2_b (c : Dev nD) : W2 m ρ c (Proc.devRef .tc main_v15) = Cert.Shared.rowOf (m ((c : Thread nD τ).loc main_arg7)) :=
  (W2_of_ne m ρ c main_v15 (by decide)).trans (at1_b m ρ c)

theorem at2_vi (c : Dev nD) : W2 m ρ c (Proc.devRef .tc main_arg2) = (m ((c : Thread nD τ).loc main_arg2)) :=
  (W2_of_ne m ρ c main_arg2 (by decide)).trans (at1_vi m ρ c)

theorem at2_ei (c : Dev nD) : W2 m ρ c (Proc.devRef .tc main_arg3) = (m ((c : Thread nD τ).loc main_arg3)) :=
  (W2_of_ne m ρ c main_arg3 (by decide)).trans (at1_ei m ρ c)

/-! ## Before the second region -/

/-- The host operations between the regions leave in the aggregate's buffer the aggregate of the first region's result
    along the index vectors: their composed term is that one function, not opened. -/
theorem in1_agg (c : Dev nD) : V3 m ρ c main_v53
    = Cert.Shared.aggregate (W2 m ρ c (Proc.devRef .tc main_v16)) (W2 m ρ c (Proc.devRef .tc main_arg2)) (W2 m ρ c (Proc.devRef .tc main_arg3)) := by
  show StableHlo.after hostOps1 (W2 m ρ c) (Proc.devRef .tc main_v53) = _
  dsimp only [hostOps1]
  after_results_simp
  rfl

theorem in1_x (c : Dev nD) : V3 m ρ c main_arg0 = (m ((c : Thread nD τ).loc main_arg0)) := by
  refine Eq.trans ?_ (at2_x m ρ c)
  show StableHlo.after hostOps1 (W2 m ρ c) (Proc.devRef .tc main_arg0) = _
  dsimp only [hostOps1]
  after_results_simp

theorem in1_recv (c : Dev nD) : V3 m ρ c main_v11 = Cert.Shared.colOf (Cert.Shared.recvOf (m ((c : Thread nD τ).loc main_arg1))) := by
  refine Eq.trans ?_ (at2_recv m ρ c)
  show StableHlo.after hostOps1 (W2 m ρ c) (Proc.devRef .tc main_v11) = _
  dsimp only [hostOps1]
  after_results_simp

theorem in1_w (c : Dev nD) : V3 m ρ c main_v13 = Cert.Shared.trOf (m ((c : Thread nD τ).loc main_arg6)) := by
  refine Eq.trans ?_ (at2_w m ρ c)
  show StableHlo.after hostOps1 (W2 m ρ c) (Proc.devRef .tc main_v13) = _
  dsimp only [hostOps1]
  after_results_simp

theorem in1_b (c : Dev nD) : V3 m ρ c main_v15 = Cert.Shared.rowOf (m ((c : Thread nD τ).loc main_arg7)) := by
  refine Eq.trans ?_ (at2_b m ρ c)
  show StableHlo.after hostOps1 (W2 m ρ c) (Proc.devRef .tc main_v15) = _
  dsimp only [hostOps1]
  after_results_simp

/-! ## After the second region -/

/-- The result buffer at the last boundary is the shared function of the eight arguments. -/
theorem result_eq (c : Dev nD) : W4 m ρ c (Proc.devRef .tc main_v54) = Cert.Shared.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Cert.KernelIdeal.Rows1.final (V3 m ρ) c).trans ?_)
  unfold Cert.KernelIdeal.Rows1.whole
  rw [in1_x m ρ c, in1_agg m ρ c, in1_recv m ρ c, in1_w m ρ c, in1_b m ρ c, at2_first m ρ c, at2_vi m ρ c, at2_ei m ρ c]
  rfl

end Cert.KernelIdeal.Fold

end
-- ==== Proof.RefValue.lean ====
/-
  The reference's result as the shared function of its arguments.

  The reference's run ends with its result buffer at the composed term of its 81 host operations. That term is, read
  off syntactically, the host's second layer of x, of the aggregate of the host's first layer, and of the receive column;
  each host layer is the corresponding dense layer. So the result is `Shared.result` of the eight arguments.
-/
import proofs.«158111_j84378927497725_1_alg».proof.Proof.Gen.ReferenceIdeal.Run
import proofs.«158111_j84378927497725_1_alg».proof.Proof.Shared

noncomputable section

namespace Cert.ReferenceIdeal.RefValue

open Idealize.ShloMosaic Idealize.ShloMosaic.TcCoe Idealize.SL.Sem
open Cert.ReferenceIdeal Cert.ReferenceIdeal.Gen Cert.ReferenceIdeal.Value

/-- The run's term is the two host layers around the aggregate: the same operations, grouped. -/
theorem res_grouped (m : (ℓ : Loc nD τ sig) → Buf (Elt Ideal) ℓ) (c : Dev nD) :
    res_main_v65 (F := Ideal) m c
      = Cert.Shared.hostSecond (m ((c.tc : Thread nD τ).loc main_arg0))
          (Cert.Shared.aggregate
            (Cert.Shared.hostFirst (m ((c.tc : Thread nD τ).loc main_arg0)) (m ((c.tc : Thread nD τ).loc main_arg1))
              (m ((c.tc : Thread nD τ).loc main_arg4)) (m ((c.tc : Thread nD τ).loc main_arg5)))
            (m ((c.tc : Thread nD τ).loc main_arg2)) (m ((c.tc : Thread nD τ).loc main_arg3)))
          (m ((c.tc : Thread nD τ).loc main_arg1)) (m ((c.tc : Thread nD τ).loc main_arg6)) (m ((c.tc : Thread nD τ).loc main_arg7)) := by
  unfold res_main_v65 Cert.Shared.hostSecond Cert.Shared.aggregate Cert.Shared.hostFirst Cert.Shared.sendOf Cert.Shared.recvOf
  rfl

/-- The reference's result is the shared function of its arguments. -/
theorem res_eq (m : (ℓ : Loc nD τ sig) → Buf (Elt Ideal) ℓ) (c : Dev nD) :
    res_main_v65 (F := Ideal) m c = Cert.Shared.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [res_grouped, Cert.Shared.hostFirst_eq, Cert.Shared.hostSecond_eq]
  rfl

end Cert.ReferenceIdeal.RefValue

end
-- ==== Proof.lean ====
/-
  A two-layer message-passing step on a hypergraph: kernel against reference, on the extended reals.

  With send = a[:,0] + a[:,2] and receive = a[:,0] + a[:,1], both programs compute
      m   = max ((x · send) W1ᵀ + b1, 0)                      (row r of x scaled by send r, a dense layer, a cut-off at 0)
      m_i = the vertex → hyperedge → vertex mean of m along the incidence pairs (v_ids, e_ids)
      h   = max ((x Wuᵀ + bu) + m_i · receive, 0) .
  The kernel computes m and h in two grids of 20 row tiles of 5000 rows, with the matrix unit's product of operands narrowed
  to a 16-bit format (the identity on the extended reals), and forms m_i between them by the same host operations as the
  reference. Each layer is row-local, so the tiles' results are the blocks of the layer of the whole arrays, and the blocks
  tile the rows. The aggregate is one function applied to equal arrays on both sides and is never opened. The two sides group
  their sums alike, so no law that needs finite inputs is used: the precondition is not opened.

  The three frames: the two kernel programs' by the launch of their four segments, the reference's by its run with the
  result dropped. The idealization rewrote no operation, so nothing is owed for it.
-/
import proofs.«158111_j84378927497725_1_alg».proof.Defs
import proofs.«158111_j84378927497725_1_alg».proof.Proof.Gen.Kernel
import proofs.«158111_j84378927497725_1_alg».proof.Proof.FrameBitsP
import proofs.«158111_j84378927497725_1_alg».proof.Proof.Gen.KernelIdeal
import proofs.«158111_j84378927497725_1_alg».proof.Proof.FrameIdealP
import proofs.«158111_j84378927497725_1_alg».proof.Proof.NamedRun
import proofs.«158111_j84378927497725_1_alg».proof.Proof.Fold
import proofs.«158111_j84378927497725_1_alg».proof.Proof.Gen.ReferenceIdeal
import proofs.«158111_j84378927497725_1_alg».proof.Proof.Gen.ReferenceIdeal.Run
import proofs.«158111_j84378927497725_1_alg».proof.Proof.RefValue
import proofs.«158111_j84378927497725_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- From memories that agree on the eight arguments both programs end with the same result array: the shared function
    of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Shared.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Fold.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.RefValue.res_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
